-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x1024x1024 : Shape := ⟨4, ![16, 3, 1024, 1024]⟩
abbrev S_ : Shape := ⟨0, ![]⟩

class Facts : Prop where
  bcast_S_S16x3x1024x1024 : S_.BroadcastsInDim S16x3x1024x1024 (![] : Fin 0 → Fin S16x3x1024x1024.rank)
  reducesTo_S16x3x1024x1024_S_d0_1_2_3 : S16x3x1024x1024.ReducesTo [0, 1, 2, 3] S_
  h_S_ : 0 < S_.numel

variable [Facts]

def fn {F : FTy → Type} [FloatOps F] (main_arg0 : FVec F S16x3x1024x1024 .f32) : IVec S_ 1 :=
  let main_v0 : FVec F S16x3x1024x1024 .f32 := Host.absf main_arg0
  let main_cst : FVec F S_ .f32 := constant S_ .f32 0x7F800000#32
  let main_v1 : FVec F S16x3x1024x1024 .f32 := broadcastInDim S16x3x1024x1024 ![] bcast_S_S16x3x1024x1024 main_cst
  let main_v2 : IVec S16x3x1024x1024 1 := cmpf .olt main_v0 main_v1
  let main_c : IVec S_ 1 := constantI S_ 1 1#1
  let main_v3 : IVec S_ 1 := (fun x v => Host.reduce IntOp.andi x v reducesTo_S16x3x1024x1024_S_d0_1_2_3 h_S_) main_v2 main_c
  main_v3
-- ==== Kernel.lean ====
abbrev S16x3x1024x1024 : Shape := ⟨4, ![16, 3, 1024, 1024]⟩
abbrev S16x1x2048x2048 : Shape := ⟨4, ![16, 1, 2048, 2048]⟩
abbrev S1x3x256x1024 : Shape := ⟨4, ![1, 3, 256, 1024]⟩
abbrev S1x1x512x2048 : Shape := ⟨4, ![1, 1, 512, 2048]⟩
abbrev S1x1x8x1024 : Shape := ⟨4, ![1, 1, 8, 1024]⟩
abbrev S8x1024 : Shape := ⟨2, ![8, 1024]⟩
abbrev S8x1024x1 : Shape := ⟨3, ![8, 1024, 1]⟩
abbrev S8x1024x2 : Shape := ⟨3, ![8, 1024, 2]⟩
abbrev S8x2048 : Shape := ⟨2, ![8, 2048]⟩
abbrev S8x1x2048 : Shape := ⟨3, ![8, 1, 2048]⟩
abbrev S8x2x2048 : Shape := ⟨3, ![8, 2, 2048]⟩
abbrev S16x2048 : Shape := ⟨2, ![16, 2048]⟩
abbrev S1x1x16x2048 : Shape := ⟨4, ![1, 1, 16, 2048]⟩

abbrev nBuf : Space → Nat
  | .hbm => 2
  | .vmem => 4
  | .smem => 0
  | _ => 0

abbrev bufTy : (tb : Table) → Fin (tcTables nBuf tb) → BufTy
  | .hbm, ⟨0, _⟩ => ⟨S16x3x1024x1024, .f32⟩
  | .hbm, ⟨1, _⟩ => ⟨S16x1x2048x2048, .f32⟩
  | .local _ .vmem, ⟨0, _⟩ => ⟨S1x3x256x1024, .f32⟩
  | .local _ .vmem, ⟨1, _⟩ => ⟨S1x3x256x1024, .f32⟩
  | .local _ .vmem, ⟨2, _⟩ => ⟨S1x1x512x2048, .f32⟩
  | .local _ .vmem, ⟨3, _⟩ => ⟨S1x1x512x2048, .f32⟩
  | _, _ => ⟨S16x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c8_i32 : BitVec 32 := 8#32
  let v1 : BitVec 32 := Scalar.muli arg4 c8_i32
  v1
def k0_off1 (k0_t1 : Fin k0_t1_loop.trips) : Fin 4 → Nat :=
  let c0 : Index := 0#32
  let c0_1 : Index := 0#32
  let c0_i32 : BitVec 32 := 0#32
  let c1_i32 : BitVec 32 := 1#32
  let arg4 : BitVec 32 := Scf.iv c0_i32 c1_i32 k0_t1
  let c8_i32 : BitVec 32 := 8#32
  let v1 : BitVec 32 := Scalar.muli arg4 c8_i32
  let v2 : BitVec 32 := v1
  let v3 : Index := Scalar.indexCast v2
  let c0_2 : Index := 0#32
  ![0, 0, v3.toNat, 0]
def k0_off2 (k0_t1 : Fin k0_t1_loop.trips) : Fin 4 → Nat :=
  let c0_3 : Index := 0#32
  let c1 : Index := 1#32
  let c0_i32 : BitVec 32 := 0#32
  let c1_i32 : BitVec 32 := 1#32
  let arg4 : BitVec 32 := Scf.iv c0_i32 c1_i32 k0_t1
  let c8_i32 : BitVec 32 := 8#32
  let v1 : BitVec 32 := Scalar.muli arg4 c8_i32
  let v2 : BitVec 32 := v1
  let v6 : Index := Scalar.indexCast v2
  let c0_4 : Index := 0#32
  ![0, 1, v6.toNat, 0]
def k0_off3 (k0_t1 : Fin k0_t1_loop.trips) : Fin 4 → Nat :=
  let c0_5 : Index := 0#32
  let c2 : Index := 2#32
  let c0_i32 : BitVec 32 := 0#32
  let c1_i32 : BitVec 32 := 1#32
  let arg4 : BitVec 32 := Scf.iv c0_i32 c1_i32 k0_t1
  let c8_i32 : BitVec 32 := 8#32
  let v1 : BitVec 32 := Scalar.muli arg4 c8_i32
  let v2 : BitVec 32 := v1
  let v9 : Index := Scalar.indexCast v2
  let c0_6 : Index := 0#32
  ![0, 2, v9.toNat, 0]
def k0_mult2 (k0_t1 : Fin k0_t1_loop.trips) : BitVec 32 :=
  let c0_i32 : BitVec 32 := 0#32
  let c1_i32 : BitVec 32 := 1#32
  let arg4 : BitVec 32 := Scf.iv c0_i32 c1_i32 k0_t1
  let c2_i32 : BitVec 32 := 2#32
  let v25 : BitVec 32 := Scalar.muli arg4 c2_i32
  let c8_i32_7 : BitVec 32 := 8#32
  let v26 : BitVec 32 := Scalar.muli v25 c8_i32_7
  v26
def k0_off4 (k0_t1 : Fin k0_t1_loop.trips) : Fin 4 → Nat :=
  let c0_8 : Index := 0#32
  let c0_9 : Index := 0#32
  let c0_i32 : BitVec 32 := 0#32
  let c1_i32 : BitVec 32 := 1#32
  let arg4 : BitVec 32 := Scf.iv c0_i32 c1_i32 k0_t1
  let c2_i32 : BitVec 32 := 2#32
  let v25 : BitVec 32 := Scalar.muli arg4 c2_i32
  let c8_i32_7 : BitVec 32 := 8#32
  let v26 : BitVec 32 := Scalar.muli v25 c8_i32_7
  let v27 : BitVec 32 := v26
  let v28 : Index := Scalar.indexCast v27
  let c0_10 : Index := 0#32
  ![0, 0, v28.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x3x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  h_S1x1x8x1024 : 0 < S1x1x8x1024.numel
  shapeCasts_S1x1x8x1024_S8x1024 : S1x1x8x1024.ShapeCasts S8x1024
  shapeCasts_S8x1024_S8x1024x1 : S8x1024.ShapeCasts S8x1024x1
  concatenates_S8x1024x1_S8x1024x1_S8x1024x2_d2 : Shape.Concatenates [S8x1024x1, S8x1024x1] S8x1024x2 2
  shapeCasts_S8x1024x2_S8x2048 : S8x1024x2.ShapeCasts S8x2048
  shapeCasts_S8x2048_S8x1x2048 : S8x2048.ShapeCasts S8x1x2048
  concatenates_S8x1x2048_S8x1x2048_S8x2x2048_d1 : Shape.Concatenates [S8x1x2048, S8x1x2048] S8x2x2048 1
  shapeCasts_S8x2x2048_S16x2048 : S8x2x2048.ShapeCasts S16x2048
  h_S1x1x16x2048 : 0 < S1x1x16x2048.numel
  shapeCasts_S1x1x16x2048_S16x2048 : S1x1x16x2048.ShapeCasts S16x2048
  shapeCasts_S16x2048_S1x1x16x2048 : S16x2048.ShapeCasts S1x1x16x2048
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S1x1x8x1024.size a ≤ S1x3x256x1024.size a
  k0_off2_inb : ∀ k0_t1 : Fin k0_t1_loop.trips, ∀ a, (k0_off2 k0_t1) a + S1x1x8x1024.size a ≤ S1x3x256x1024.size a
  k0_off3_inb : ∀ k0_t1 : Fin k0_t1_loop.trips, ∀ a, (k0_off3 k0_t1) a + S1x1x8x1024.size a ≤ S1x3x256x1024.size a
  k0_mult2_dvd : ∀ k0_t1 : Fin k0_t1_loop.trips, 16 ∣ (k0_mult2 k0_t1).toNat
  k0_off4_inb : ∀ k0_t1 : Fin k0_t1_loop.trips, ∀ a, (k0_off4 k0_t1) a + S1x1x16x2048.size a ≤ S1x1x512x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x256x1024.size a ≤ S16x3x1024x1024.size a
  hwx0_0 : ∀ i : grid0.Coords, EltTy.bits .f32 = 32 ∨ (Rect.block (s := S16x3x1024x1024) S1x3x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x2048.size a ≤ S16x1x2048x2048.size a
  hwx0_1 : ∀ i : grid0.Coords, EltTy.bits .f32 = 32 ∨ (Rect.block (s := S16x1x2048x2048) S1x1x512x2048.size (cc0_transform_1 i) (hinb0_1 i)).WholeWords (EltTy.packing .f32)

variable [Facts₀]

abbrev win0_0 : Pipeline.Window sig grid0 :=
  Pipeline.Window.ofSpec (Memref.whole main_arg0) S1x3x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x512x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x3x1024x1024 : Shape := ⟨4, ![16, 3, 1024, 1024]⟩
abbrev S_ : Shape := ⟨0, ![]⟩
abbrev S16x1024x1024 : Shape := ⟨3, ![16, 1024, 1024]⟩
abbrev S16x1x1024x1024 : Shape := ⟨4, ![16, 1, 1024, 1024]⟩
abbrev S16x4x1024x1024 : Shape := ⟨4, ![16, 4, 1024, 1024]⟩
abbrev S16x2x2x1024x1024 : Shape := ⟨5, ![16, 2, 2, 1024, 1024]⟩
abbrev S16x1024x2x1024x2 : Shape := ⟨5, ![16, 1024, 2, 1024, 2]⟩
abbrev S16x1x2048x2048 : Shape := ⟨4, ![16, 1, 2048, 2048]⟩

abbrev nBuf : Space → Nat
  | .hbm => 17
  | .vmem => 0
  | .smem => 0
  | _ => 0

abbrev bufTy : (tb : Table) → Fin (tcTables nBuf tb) → BufTy
  | .hbm, ⟨0, _⟩ => ⟨S16x3x1024x1024, .f32⟩
  | .hbm, ⟨1, _⟩ => ⟨S_, .f32⟩
  | .hbm, ⟨2, _⟩ => ⟨S16x1024x1024, .f32⟩
  | .hbm, ⟨3, _⟩ => ⟨S16x1x1024x1024, .f32⟩
  | .hbm, ⟨4, _⟩ => ⟨S16x1024x1024, .f32⟩
  | .hbm, ⟨5, _⟩ => ⟨S16x1x1024x1024, .f32⟩
  | .hbm, ⟨6, _⟩ => ⟨S16x1024x1024, .f32⟩
  | .hbm, ⟨7, _⟩ => ⟨S16x1x1024x1024, .f32⟩
  | .hbm, ⟨8, _⟩ => ⟨S16x1024x1024, .f32⟩
  | .hbm, ⟨9, _⟩ => ⟨S16x1x1024x1024, .f32⟩
  | .hbm, ⟨10, _⟩ => ⟨S16x1x1024x1024, .f32⟩
  | .hbm, ⟨11, _⟩ => ⟨S16x1x1024x1024, .f32⟩
  | .hbm, ⟨12, _⟩ => ⟨S16x1x1024x1024, .f32⟩
  | .hbm, ⟨13, _⟩ => ⟨S16x4x1024x1024, .f32⟩
  | .hbm, ⟨14, _⟩ => ⟨S16x2x2x1024x1024, .f32⟩
  | .hbm, ⟨15, _⟩ => ⟨S16x1024x2x1024x2, .f32⟩
  | .hbm, ⟨16, _⟩ => ⟨S16x1x2048x2048, .f32⟩
  | _, _ => ⟨S16x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩

abbrev nD : Nat := 1
abbrev τ : Topo := Topo.v7x

variable {F : FTy → Type} [FloatOps F]

class Facts₀ : Prop where
  bcast_S_S16x1024x1024 : S_.BroadcastsInDim S16x1024x1024 (![] : Fin 0 → Fin S16x1024x1024.rank)
  slices_S16x3x1024x1024_S16x1x1024x1024_0_0_0_0 : S16x3x1024x1024.Slices ![0, 0, 0, 0] S16x1x1024x1024
  shapeCasts_S16x1x1024x1024_S16x1024x1024 : S16x1x1024x1024.ShapeCasts S16x1024x1024
  slices_S16x3x1024x1024_S16x1x1024x1024_0_1_0_0 : S16x3x1024x1024.Slices ![0, 1, 0, 0] S16x1x1024x1024
  slices_S16x3x1024x1024_S16x1x1024x1024_0_2_0_0 : S16x3x1024x1024.Slices ![0, 2, 0, 0] S16x1x1024x1024
  bcast_S16x1024x1024_S16x1x1024x1024_0_2_3 : S16x1024x1024.BroadcastsInDim S16x1x1024x1024 (![0, 2, 3] : Fin 3 → Fin S16x1x1024x1024.rank)
  concatenates_S16x1x1024x1024_S16x1x1024x1024_S16x1x1024x1024_S16x1x1024x1024_S16x4x1024x1024_d1 : Shape.Concatenates [S16x1x1024x1024, S16x1x1024x1024, S16x1x1024x1024, S16x1x1024x1024] S16x4x1024x1024 1
  shapeCasts_S16x4x1024x1024_S16x2x2x1024x1024 : S16x4x1024x1024.ShapeCasts S16x2x2x1024x1024
  transposes_S16x2x2x1024x1024_S16x1024x2x1024x2_0_3_1_4_2 : S16x2x2x1024x1024.Transposes [0, 3, 1, 4, 2] S16x1024x2x1024x2
  shapeCasts_S16x1024x2x1024x2_S16x1x2048x2048 : S16x1024x2x1024x2.ShapeCasts S16x1x2048x2048

variable [Facts₀]

class Facts : Prop extends Facts₀ where

variable [Facts]
-- ==== Proof.Spec.lean ====
/-
  The result both programs compute, as ONE function of the argument array.

  The input is x : [16, 3, 1024, 1024]; the output is y : [16, 1, 2048, 2048]. Every 2 x 2 cell of an output
  plane is filled from one input pixel position (i, j) of the same batch entry b:

      y[b, 0, 2i,     2j    ] = x[b, 0, i, j]
      y[b, 0, 2i,     2j + 1] = x[b, 1, i, j]
      y[b, 0, 2i + 1, 2j    ] = x[b, 2, i, j]
      y[b, 0, 2i + 1, 2j + 1] = -1.0

  So an output entry at row R, column C depends only on the parities of R and C and on the input at
  (R / 2, C / 2). No arithmetic is done on the entries: the float word of -1.0 is carried as a word and never
  evaluated, so the function is stated for any float instance and no property of the extended reals is used.
-/
import Idealize.ShloMosaic.PureOps.Ideal
import Idealize.ShloMosaic.Lib.ValueIdx

noncomputable section

namespace Cert.Interleave

open Idealize.ShloMosaic Idealize.ShloMosaic.ValueIdx

variable {F : FTy → Type} [FloatOps F]

/-- The argument array's shape. -/
abbrev SIn : Shape := ⟨4, ![16, 3, 1024, 1024]⟩
/-- The result array's shape. -/
abbrev SOut : Shape := ⟨4, ![16, 1, 2048, 2048]⟩

/-- Half of an output coordinate: the input coordinate its 2 x 2 cell comes from. -/
def half (r : Fin 2048) : Fin 1024 := ⟨r.val / 2, by omega⟩

theorem half_val (r : Fin 2048) : (half r).val = r.val / 2 := rfl

/-- The output entry at batch entry `b`, row `R`, column `C`: by the parities of `R` and `C`, one of the three
    input channels at `(R / 2, C / 2)`, or the constant -1.0. -/
def pix (x : FVec F SIn .f32) (b : Fin 16) (R C : Fin 2048) : F .f32 :=
  if R.val % 2 = 0 then
    (if C.val % 2 = 0 then x (ix4 b (0 : Fin 3) (half R) (half C)) else x (ix4 b (1 : Fin 3) (half R) (half C)))
  else
    (if C.val % 2 = 0 then x (ix4 b (2 : Fin 3) (half R) (half C)) else FloatOps.ofBits .f32 0xBF800000#32)

/-- The whole result array as a function of the argument array. -/
def G (x : FVec F SIn .f32) : FVec F SOut .f32 := fun j => pix x (j 0) (j 2) (j 3)

theorem G_apply (x : FVec F SIn .f32) (b : Fin 16) (z : Fin 1) (R C : Fin 2048) :
    G x (ix4 b z R C) = pix x b R C := rfl

end Cert.Interleave

end
-- ==== Proof.Interleave.lean ====
/-
  Two interleaves read at an index, over any element type.

  LANES. Two [8, 1024] arrays p and q are each given a trailing unit axis, joined along that axis to an
  [8, 1024, 2] array and flattened to [8, 2048]. Row-major flattening sends (a, j, w) to column 2 j + w, so the
  result at (a, c) is p at (a, c / 2) when c is even and q at (a, c / 2) when c is odd.

  ROWS. Two [8, 2048] arrays p and q are each given a middle unit axis, joined along it to an [8, 2, 2048] array and
  flattened to [16, 2048]. Row-major flattening sends (a, h, c) to row 2 a + h, so the result at (r, c) is p at
  (r / 2, c) when r is even and q at (r / 2, c) when r is odd.

  Also the two casts between a [1, 1, a, b] block and its [a, b] matrix, at the two extents met here.
-/
import Idealize.ShloMosaic.Lib.Pipeline.Value
import Idealize.ShloMosaic.Lib.ValueIdx

noncomputable section

namespace Cert.Interleave

open Idealize.ShloMosaic Idealize.ShloMosaic.ValueIdx

variable {α : Type}

abbrev T8x1024 : Shape := ⟨2, ![8, 1024]⟩
abbrev T8x1024x1 : Shape := ⟨3, ![8, 1024, 1]⟩
abbrev T8x1024x2 : Shape := ⟨3, ![8, 1024, 2]⟩
abbrev T8x2048 : Shape := ⟨2, ![8, 2048]⟩
abbrev T8x1x2048 : Shape := ⟨3, ![8, 1, 2048]⟩
abbrev T8x2x2048 : Shape := ⟨3, ![8, 2, 2048]⟩
abbrev T16x2048 : Shape := ⟨2, ![16, 2048]⟩
abbrev T1x1x8x1024 : Shape := ⟨4, ![1, 1, 8, 1024]⟩
abbrev T1x1x16x2048 : Shape := ⟨4, ![1, 1, 16, 2048]⟩

/-- Half of a column of the widened array. -/
def halfC (c : Fin 2048) : Fin 1024 := ⟨c.val / 2, by omega⟩
/-- Half of a row of the doubled chunk. -/
def halfR (r : Fin 16) : Fin 8 := ⟨r.val / 2, by omega⟩

theorem halfC_val (c : Fin 2048) : (halfC c).val = c.val / 2 := rfl
theorem halfR_val (r : Fin 16) : (halfR r).val = r.val / 2 := rfl

/-- An [8, 1024] array with a trailing unit axis, read at (a, j, 0). -/
theorem trailingUnit_apply (p : T8x1024.Idx → α) (h : T8x1024.ShapeCasts T8x1024x1) (a : Fin 8) (j : Fin 1024) (u : Fin 1) :
    shapeCast T8x1024x1 p h (ix3 a j u) = p (ix2 a j) :=
  shapeCast_apply p h (ix3 a j u) (ix2 a j) (by
    rw [Shape.rowMajor_val_two, Shape.rowMajor_val_three]
    have hu : u.val < 1 := u.isLt
    show a.val * 1024 + j.val = (a.val * 1024 + j.val) * 1 + u.val
    omega)

/-- The lane interleave of `p` and `q` at (a, c): `p` at even columns, `q` at odd ones, at column c / 2. -/
theorem lanes_apply (p q : T8x1024.Idx → α) (h1 : T8x1024.ShapeCasts T8x1024x1)
    (hc : Shape.Concatenates [T8x1024x1, T8x1024x1] T8x1024x2 2) (h2 : T8x1024x2.ShapeCasts T8x2048)
    (a : Fin 8) (c : Fin 2048) :
    shapeCast T8x2048 (concatenate T8x1024x2 2 [⟨T8x1024x1, shapeCast T8x1024x1 p h1⟩, ⟨T8x1024x1, shapeCast T8x1024x1 q h1⟩] hc) h2 (ix2 a c)
      = if c.val % 2 = 0 then p (ix2 a (halfC c)) else q (ix2 a (halfC c)) := by
  have hcl : c.val < 2048 := c.isLt
  rw [shapeCast_apply _ h2 (ix2 a c) (ix3 a (halfC c) (⟨c.val % 2, by omega⟩ : Fin 2)) (by
    rw [Shape.rowMajor_val_three, Shape.rowMajor_val_two]
    show (a.val * 1024 + c.val / 2) * 2 + c.val % 2 = a.val * 2048 + c.val
    omega)]
  split
  · rename_i he
    refine (concatenate_pair_apply_left (t := T8x1024x2) (s₁ := T8x1024x1) (s₂ := T8x1024x1) (2 : Fin 3) _ _ hc
      (ix3 a (halfC c) (⟨c.val % 2, by omega⟩ : Fin 2)) rfl (ix3 a (halfC c) (0 : Fin 1)) (fun b => by
      match b with
      | ⟨0, _⟩ => rfl
      | ⟨1, _⟩ => rfl
      | ⟨2, _⟩ => show 0 = c.val % 2; omega)).trans ?_
    exact trailingUnit_apply p h1 a (halfC c) 0
  · rename_i he
    refine (concatenate_pair_apply_right (t := T8x1024x2) (s₁ := T8x1024x1) (s₂ := T8x1024x1) (2 : Fin 3) _ _ hc
      (ix3 a (halfC c) (⟨c.val % 2, by omega⟩ : Fin 2)) rfl rfl (ix3 a (halfC c) (0 : Fin 1)) (fun b hb => by
      match b, hb with
      | ⟨0, _⟩, _ => rfl
      | ⟨1, _⟩, _ => rfl
      | ⟨2, _⟩, hb => exact absurd rfl hb) (by show 0 + 1 = c.val % 2; omega)).trans ?_
    exact trailingUnit_apply q h1 a (halfC c) 0

/-- An [8, 2048] array with a middle unit axis, read at (a, 0, c). -/
theorem middleUnit_apply (p : T8x2048.Idx → α) (h : T8x2048.ShapeCasts T8x1x2048) (a : Fin 8) (u : Fin 1) (c : Fin 2048) :
    shapeCast T8x1x2048 p h (ix3 a u c) = p (ix2 a c) :=
  shapeCast_apply p h (ix3 a u c) (ix2 a c) (by
    rw [Shape.rowMajor_val_two, Shape.rowMajor_val_three]
    have hu : u.val < 1 := u.isLt
    show a.val * 2048 + c.val = (a.val * 1 + u.val) * 2048 + c.val
    omega)

/-- The row interleave of `p` and `q` at (r, c): `p` at even rows, `q` at odd ones, at row r / 2. -/
theorem rows_apply (p q : T8x2048.Idx → α) (h1 : T8x2048.ShapeCasts T8x1x2048)
    (hc : Shape.Concatenates [T8x1x2048, T8x1x2048] T8x2x2048 1) (h2 : T8x2x2048.ShapeCasts T16x2048)
    (r : Fin 16) (c : Fin 2048) :
    shapeCast T16x2048 (concatenate T8x2x2048 1 [⟨T8x1x2048, shapeCast T8x1x2048 p h1⟩, ⟨T8x1x2048, shapeCast T8x1x2048 q h1⟩] hc) h2 (ix2 r c)
      = if r.val % 2 = 0 then p (ix2 (halfR r) c) else q (ix2 (halfR r) c) := by
  have hrl : r.val < 16 := r.isLt
  rw [shapeCast_apply _ h2 (ix2 r c) (ix3 (halfR r) (⟨r.val % 2, by omega⟩ : Fin 2) c) (by
    rw [Shape.rowMajor_val_three, Shape.rowMajor_val_two]
    show (r.val / 2 * 2 + r.val % 2) * 2048 + c.val = r.val * 2048 + c.val
    omega)]
  split
  · rename_i he
    refine (concatenate_pair_apply_left (t := T8x2x2048) (s₁ := T8x1x2048) (s₂ := T8x1x2048) (1 : Fin 3) _ _ hc
      (ix3 (halfR r) (⟨r.val % 2, by omega⟩ : Fin 2) c) rfl (ix3 (halfR r) (0 : Fin 1) c) (fun b => by
      match b with
      | ⟨0, _⟩ => rfl
      | ⟨1, _⟩ => show 0 = r.val % 2; omega
      | ⟨2, _⟩ => rfl)).trans ?_
    exact middleUnit_apply p h1 (halfR r) 0 c
  · rename_i he
    refine (concatenate_pair_apply_right (t := T8x2x2048) (s₁ := T8x1x2048) (s₂ := T8x1x2048) (1 : Fin 3) _ _ hc
      (ix3 (halfR r) (⟨r.val % 2, by omega⟩ : Fin 2) c) rfl rfl (ix3 (halfR r) (0 : Fin 1) c) (fun b hb => by
      match b, hb with
      | ⟨0, _⟩, _ => rfl
      | ⟨1, _⟩, hb => exact absurd rfl hb
      | ⟨2, _⟩, _ => rfl) (by show 0 + 1 = r.val % 2; omega)).trans ?_
    exact middleUnit_apply q h1 (halfR r) 0 c

/-- A [1, 1, 8, 1024] block seen as its [8, 1024] matrix, read at (a, j). -/
theorem block8_apply (v : T1x1x8x1024.Idx → α) (h : T1x1x8x1024.ShapeCasts T8x1024) (a : Fin 8) (j : Fin 1024) :
    shapeCast T8x1024 v h (ix2 a j) = v (ix4 (0 : Fin 1) (0 : Fin 1) a j) :=
  shapeCast_apply v h (ix2 a j) (ix4 (0 : Fin 1) (0 : Fin 1) a j) (by
    rw [Shape.rowMajor_val_four, Shape.rowMajor_val_two]
    show ((0 * 1 + 0) * 8 + a.val) * 1024 + j.val = a.val * 1024 + j.val
    omega)

/-- A [16, 2048] matrix put back as a [1, 1, 16, 2048] block, read at (u, u', r, c). -/
theorem block16_apply (v : T16x2048.Idx → α) (h : T16x2048.ShapeCasts T1x1x16x2048) (u u' : Fin 1) (r : Fin 16) (c : Fin 2048) :
    shapeCast T1x1x16x2048 v h (ix4 u u' r c) = v (ix2 r c) :=
  shapeCast_apply v h (ix4 u u' r c) (ix2 r c) (by
    rw [Shape.rowMajor_val_two, Shape.rowMajor_val_four]
    have hu : u.val < 1 := u.isLt
    have hu' : u'.val < 1 := u'.isLt
    show r.val * 2048 + c.val = ((u.val * 1 + u'.val) * 16 + r.val) * 2048 + c.val
    omega)

end Cert.Interleave

end
-- ==== Proof.Block.lean ====
/-
  One grid point's output block as a function of its input block, and that each of the body's stores restricts it.

  At grid point (b, h) the body sees the input block x0 = x[b, 0..2, 256 h .. 256 h + 255, :] and fills the output
  block y[b, 0, 512 h .. 512 h + 511, :]. Its loop runs 32 trips; trip k loads rows 8k .. 8k+7 of each of the three
  channels, interleaves them with the constant along the lanes and then along the rows, and stores the resulting
  16 rows at rows 16k .. 16k+15 of the output block.
-/
import proofs.«118952_j28020366639577_2_alg».proof.Proof.Gen.KernelIdeal.Skeleton
import proofs.«118952_j28020366639577_2_alg».proof.Proof.Interleave
import Idealize.ShloMosaic.Lib.Pipeline.Value
import Idealize.ShloMosaic.Lib.ValueIdx

noncomputable section

open Idealize.ShloMosaic Idealize.ShloMosaic.ValueIdx

namespace Cert.KernelIdeal.Hand

open Cert.KernelIdeal Cert.KernelIdeal.Gen Cert.Interleave

variable {F : FTy → Type} [FloatOps F]

/-- The store's payload at (u, u', r, c) of the 16-row chunk: by the parities of the row and the column, one of the
    three loaded 8-row slices at (r / 2, c / 2), or the constant. -/
theorem pay_apply (v4 v7 v10 : Vec F S1x1x8x1024 .f32) (u u' : Fin 1) (r : Fin 16) (c : Fin 2048) :
    k0_pay1 v4 v7 v10 (ix4 u u' r c) =
      if r.val % 2 = 0 then
        (if c.val % 2 = 0 then v4 (ix4 (0 : Fin 1) (0 : Fin 1) (halfR r) (halfC c)) else v7 (ix4 (0 : Fin 1) (0 : Fin 1) (halfR r) (halfC c)))
      else
        (if c.val % 2 = 0 then v10 (ix4 (0 : Fin 1) (0 : Fin 1) (halfR r) (halfC c)) else FloatOps.ofBits .f32 0xBF800000#32) := by
  unfold k0_pay1
  refine (block16_apply _ _ u u' r c).trans ?_
  refine (rows_apply _ _ _ _ _ r c).trans ?_
  split
  · refine (lanes_apply _ _ _ _ _ (halfR r) c).trans ?_
    split
    · exact block8_apply v4 _ (halfR r) (halfC c)
    · exact block8_apply v7 _ (halfR r) (halfC c)
  · refine (lanes_apply _ _ _ _ _ (halfR r) c).trans ?_
    split
    · exact block8_apply v10 _ (halfR r) (halfC c)
    · rfl

/-- Half of a row of an output block. -/
def halfB (r : Fin 512) : Fin 256 := ⟨r.val / 2, by omega⟩

theorem halfB_val (r : Fin 512) : (halfB r).val = r.val / 2 := rfl

/-- WHAT ONE GRID POINT'S OUTPUT BLOCK HOLDS, as a function of its input block `x0` of shape [1, 3, 256, 1024]: the
    entry at row R, column C of the [1, 1, 512, 2048] block is, by the parities of R and C, one of the three channels
    of `x0` at (R / 2, C / 2), or the constant -1.0. -/
def blockOf (x0 : Vec F S1x3x256x1024 .f32) : Vec F S1x1x512x2048 .f32 := fun y =>
  if (y 2).val % 2 = 0 then
    (if (y 3).val % 2 = 0 then x0 (ix4 (0 : Fin 1) (0 : Fin 3) (halfB (y 2)) (halfC (y 3)))
      else x0 (ix4 (0 : Fin 1) (1 : Fin 3) (halfB (y 2)) (halfC (y 3))))
  else
    (if (y 3).val % 2 = 0 then x0 (ix4 (0 : Fin 1) (2 : Fin 3) (halfB (y 2)) (halfC (y 3)))
      else FloatOps.ofBits .f32 0xBF800000#32)

/-- ONE TRIP'S STORE RESTRICTS THE BLOCK FUNCTION. Trip k loads rows 8k … 8k+7 of each channel and stores rows
    16k … 16k+15 of the output block; at local (r, c) the stored entry is the block function at (16k + r, c), because
    (16k + r) / 2 = 8k + r / 2 and the parity of 16k + r is that of r. -/
theorem piece_core (x0 : Vec F S1x3x256x1024 .f32) (k : Nat) (hk : k < 32)
    (inb1 : ∀ a, (![0, 0, 8 * k, 0] : Fin 4 → Nat) a + S1x1x8x1024.size a ≤ S1x3x256x1024.size a)
    (inb2 : ∀ a, (![0, 1, 8 * k, 0] : Fin 4 → Nat) a + S1x1x8x1024.size a ≤ S1x3x256x1024.size a)
    (inb3 : ∀ a, (![0, 2, 8 * k, 0] : Fin 4 → Nat) a + S1x1x8x1024.size a ≤ S1x3x256x1024.size a)
    (inb4 : ∀ a, (![0, 0, 16 * k, 0] : Fin 4 → Nat) a + S1x1x16x2048.size a ≤ S1x1x512x2048.size a)
    (x : S1x1x16x2048.Idx) :
    k0_pay1 (View.ld x0 (Rect.unit (s := S1x3x256x1024) ![0, 0, 8 * k, 0] S1x1x8x1024.size inb1))
        (View.ld x0 (Rect.unit (s := S1x3x256x1024) ![0, 1, 8 * k, 0] S1x1x8x1024.size inb2))
        (View.ld x0 (Rect.unit (s := S1x3x256x1024) ![0, 2, 8 * k, 0] S1x1x8x1024.size inb3)) x
      = blockOf x0 ((Rect.unit (s := S1x1x512x2048) ![0, 0, 16 * k, 0] S1x1x16x2048.size inb4).emb x) := by
  obtain ⟨u, u', r, c, rfl⟩ : ∃ (u u' : Fin 1) (r : Fin 16) (c : Fin 2048), x = ix4 u u' r c :=
    ⟨x 0, x 1, x 2, x 3, eq_ix4 x⟩
  have hr16 : r.val < 16 := r.isLt
  have hc2048 : c.val < 2048 := c.isLt
  rw [pay_apply]
  unfold blockOf
  have e2 : (((Rect.unit (s := S1x1x512x2048) ![0, 0, 16 * k, 0] S1x1x16x2048.size inb4).emb (ix4 u u' r c)) 2).val = 16 * k + 1 * r.val := rfl
  have e3 : (((Rect.unit (s := S1x1x512x2048) ![0, 0, 16 * k, 0] S1x1x16x2048.size inb4).emb (ix4 u u' r c)) 3).val = 0 + 1 * c.val := rfl
  by_cases hr : r.val % 2 = 0 <;> by_cases hc : c.val % 2 = 0
  · rw [if_pos hr, if_pos hc, if_pos (by rw [e2]; omega), if_pos (by rw [e3]; omega)]
    refine congrArg x0 (funext fun a => Fin.ext ?_)
    match a with
    | ⟨0, _⟩ => rfl
    | ⟨1, _⟩ => rfl
    | ⟨2, _⟩ => show 8 * k + 1 * (r.val / 2) = (16 * k + 1 * r.val) / 2; omega
    | ⟨3, _⟩ => show 0 + 1 * (c.val / 2) = (0 + 1 * c.val) / 2; omega
  · rw [if_pos hr, if_neg hc, if_pos (by rw [e2]; omega), if_neg (by rw [e3]; omega)]
    refine congrArg x0 (funext fun a => Fin.ext ?_)
    match a with
    | ⟨0, _⟩ => rfl
    | ⟨1, _⟩ => rfl
    | ⟨2, _⟩ => show 8 * k + 1 * (r.val / 2) = (16 * k + 1 * r.val) / 2; omega
    | ⟨3, _⟩ => show 0 + 1 * (c.val / 2) = (0 + 1 * c.val) / 2; omega
  · rw [if_neg hr, if_pos hc, if_neg (by rw [e2]; omega), if_pos (by rw [e3]; omega)]
    refine congrArg x0 (funext fun a => Fin.ext ?_)
    match a with
    | ⟨0, _⟩ => rfl
    | ⟨1, _⟩ => rfl
    | ⟨2, _⟩ => show 8 * k + 1 * (r.val / 2) = (16 * k + 1 * r.val) / 2; omega
    | ⟨3, _⟩ => show 0 + 1 * (c.val / 2) = (0 + 1 * c.val) / 2; omega
  · rw [if_neg hr, if_neg hc, if_neg (by rw [e2]; omega), if_neg (by rw [e3]; omega)]

/-- The same with the offsets as variables known to be those closed forms (the printed offsets are word
    computations of the trip; their closed forms are stated beside them). -/
theorem piece_of_offsets (x0 : Vec F S1x3x256x1024 .f32) (k : Nat) (hk : k < 32) (o1 o2 o3 o4 : Fin 4 → Nat)
    (h1 : o1 = ![0, 0, 8 * k, 0]) (h2 : o2 = ![0, 1, 8 * k, 0]) (h3 : o3 = ![0, 2, 8 * k, 0]) (h4 : o4 = ![0, 0, 16 * k, 0])
    (inb1 : ∀ a, o1 a + S1x1x8x1024.size a ≤ S1x3x256x1024.size a)
    (inb2 : ∀ a, o2 a + S1x1x8x1024.size a ≤ S1x3x256x1024.size a)
    (inb3 : ∀ a, o3 a + S1x1x8x1024.size a ≤ S1x3x256x1024.size a)
    (inb4 : ∀ a, o4 a + S1x1x16x2048.size a ≤ S1x1x512x2048.size a)
    (x : S1x1x16x2048.Idx) :
    k0_pay1 (View.ld x0 (Rect.unit (s := S1x3x256x1024) o1 S1x1x8x1024.size inb1))
        (View.ld x0 (Rect.unit (s := S1x3x256x1024) o2 S1x1x8x1024.size inb2))
        (View.ld x0 (Rect.unit (s := S1x3x256x1024) o3 S1x1x8x1024.size inb3)) x
      = blockOf x0 ((Rect.unit (s := S1x1x512x2048) o4 S1x1x16x2048.size inb4).emb x) := by
  subst h1 h2 h3 h4
  exact piece_core x0 k hk inb1 inb2 inb3 inb4 x

end Cert.KernelIdeal.Hand

end
-- ==== Proof.BodyValue.lean ====
/-
  What the kernel body leaves in the output's staging buffer at one grid point: the block function of the input
  block. The body's loop leaves a list of stores, one per trip; the list is built by recursion on the trip count, so
  that every store restricts the block function follows by induction on it, and since the stores tile the block the
  contents they leave is that function.
-/
import proofs.«118952_j28020366639577_2_alg».proof.Proof.Gen.KernelIdeal.Frame
import proofs.«118952_j28020366639577_2_alg».proof.Proof.Block
import Idealize.ShloMosaic.Lib.Pipeline.Value

set_option maxRecDepth 16384

noncomputable section

open Idealize.ShloMosaic Idealize.ShloMosaic.TcCoe Idealize.SL.Sem
open Idealize.ShloMosaic.ValueIdx

namespace Cert.KernelIdeal.Hand

open Cert.KernelIdeal Cert.KernelIdeal.Gen Cert.Interleave

variable {F : FTy → Type} [FloatOps F]

/-- THE ONE PIECE OF A TRIP. Trip k of the loop leaves one store, and it restricts the block function of the input
    block the staging buffer holds. -/
theorem trip_restricts (𝒱 : Variants) (c : Dev nD) (bd : Option 𝒱.V) (i : grid0.Coords)
    (arg2 : Memref sig .tc .vmem S1x3x256x1024 .f32) (harg2 : arg2.IsWhole)
    (arg3 : Memref sig .tc .vmem S1x1x512x2048 .f32) (harg3 : arg3.IsWhole)
    (x0 : Vec F S1x3x256x1024 .f32) (k : Fin k0_t1_loop.trips) :
    ∀ p ∈ tripL_k0_t1 (F := F) 𝒱 c bd i arg2 harg2 arg3 harg3 (harg2.unread x0) k,
      ∀ x : p.1.shape.Idx, p.2 x = blockOf x0 (p.1.emb x) := by
  have hk : k.val < 32 := Nat.lt_of_lt_of_le k.isLt k0_t1_abs.2.1
  unfold tripL_k0_t1 trip_k0_t1
  dsimp only
  intro p hp
  rw [List.mem_singleton] at hp
  subst hp
  intro x
  simp only [View.readAt_eq_ld, harg2.read_unread]
  exact piece_of_offsets x0 k.val hk _ _ _ _ (k0_off1_eq k) (k0_off2_eq k) (k0_off3_eq k) (k0_off4_eq k) _ _ _ _ x

/-- So do the pieces of the trips before any trip count: by induction, each step adding one trip's piece in front. -/
theorem pb_restricts (𝒱 : Variants) (c : Dev nD) (bd : Option 𝒱.V) (i : grid0.Coords)
    (arg2 : Memref sig .tc .vmem S1x3x256x1024 .f32) (harg2 : arg2.IsWhole)
    (arg3 : Memref sig .tc .vmem S1x1x512x2048 .f32) (harg3 : arg3.IsWhole)
    (x0 : Vec F S1x3x256x1024 .f32) :
    ∀ n : ℕ, ∀ p ∈ pb_k0_t1 (F := F) 𝒱 c bd i arg2 harg2 arg3 harg3 (harg2.unread x0) n,
      ∀ x : p.1.shape.Idx, p.2 x = blockOf x0 (p.1.emb x)
  | 0 => by
    intro p hp
    rw [pb_k0_t1.eq_1] at hp
    exact absurd hp List.not_mem_nil
  | n + 1 => by
    intro p hp
    rw [pb_k0_t1.eq_2] at hp
    unfold pb_k0_t1Step at hp
    split at hp
    · rename_i hn
      rcases List.mem_append.mp hp with h | h
      · exact trip_restricts 𝒱 c bd i arg2 harg2 arg3 harg3 x0 ⟨n, hn⟩ p h
      · exact pb_restricts 𝒱 c bd i arg2 harg2 arg3 harg3 x0 n p h
    · exact pb_restricts 𝒱 c bd i arg2 harg2 arg3 harg3 x0 n p hp

/-- WHAT THE BODY LEAVES IN THE OUTPUT'S STAGING BUFFER: the block function of the input block. The body's 32 stores
    tile the output block, every store restricts the block function, so the contents they leave is that function. -/
theorem out_eq (c : Dev nD) (i : grid0.Coords)
    (arg2 : Memref sig .tc .vmem S1x3x256x1024 .f32) (harg2 : arg2.IsWhole)
    (arg3 : Memref sig .tc .vmem S1x1x512x2048 .f32) (harg3 : arg3.IsWhole)
    (x0 : Vec F S1x3x256x1024 .f32) :
    out0_A_1 c i arg2 harg2 arg3 harg3 x0 = blockOf x0 := by
  unfold out0_A_1
  rw [View.read_writes_eq_canon _ _ _ (cover0_A_1 c i arg2 harg2 arg3 harg3 x0)]
  funext y
  refine View.canon_apply_of_pieces (blockOf x0) _ ?_ y (cover0_A_1 c i arg2 harg2 arg3 harg3 x0 y)
  unfold kernelRun0_A
  dsimp only
  exact pb_restricts Variants.none c none i arg2 harg2 arg3 harg3 x0 _

end Cert.KernelIdeal.Hand

end
-- ==== Proof.KernelValue.lean ====
/-
  From blocks to the array: the kernel's result array is the whole-array function of its argument.

  The grid has 16 x 4 points; point (b, h) reads the input block x[b, :, 256 h .. 256 h + 255, :] and writes back the
  output block y[b, 0, 512 h .. 512 h + 511, :]. What the body leaves in that block is the block function of the input
  block, and the block function at local (R, C) is the whole-array function at (b, 0, 512 h + R, C): the two halvings
  agree because 512 h is even and (512 h + R) / 2 = 256 h + R / 2. The 64 output blocks tile the result array (entry
  (b, 0, R, C) lies in the block of point (b, R / 512)), so the array ends holding the whole-array function everywhere.
-/
import proofs.«118952_j28020366639577_2_alg».proof.Proof.Gen.KernelIdeal.Value
import proofs.«118952_j28020366639577_2_alg».proof.Proof.BodyValue
import proofs.«118952_j28020366639577_2_alg».proof.Proof.Spec
import Idealize.ShloMosaic.Lib.Pipeline.Value

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen Cert.KernelIdeal.Value Cert.Interleave

variable {F : FTy → Type} [FloatOps F]
variable (m : (ℓ : Loc nD τ sig) → Buf (Elt F) ℓ) (ρ : Dev nD → PrngReg)

/-- The two windows' index maps, decided over the grid's 64 points: the input block and the output block of a point
    sit at the same batch entry and the same row band, both maps are zero on the other two axes, and the batch entry
    and the band stay in their ranges. -/
theorem idx_facts : ∀ t : Fin cfg0.N,
    win0_0.index t (0 : Fin 4) = win0_1.index t (0 : Fin 4) ∧ win0_0.index t (1 : Fin 4) = 0
    ∧ win0_0.index t (2 : Fin 4) = win0_1.index t (2 : Fin 4) ∧ win0_0.index t (3 : Fin 4) = 0
    ∧ win0_1.index t (0 : Fin 4) ≤ 15 ∧ win0_1.index t (1 : Fin 4) = 0
    ∧ win0_1.index t (2 : Fin 4) ≤ 3 ∧ win0_1.index t (3 : Fin 4) = 0 :=
  (by decide +kernel : ∀ t : Fin grid0.N, _)

/-- Every (batch entry, row band) pair is some grid point's output block. -/
theorem idx_onto : ∀ (q0 : Fin 16) (q2 : Fin 4), ∃ t : Fin cfg0.N, win0_1.index t = ![q0.val, 0, q2.val, 0] :=
  (by decide +kernel : ∀ (q0 : Fin 16) (q2 : Fin 4), ∃ t : Fin grid0.N, win0_1.index t = ![q0.val, 0, q2.val, 0])

/-- THE BLOCK FUNCTION IS A RESTRICTION OF THE WHOLE-ARRAY FUNCTION. If the input block `x0` is the argument array
    `X` at batch entry i0 and rows 256 i2 .. 256 i2 + 255, then the block function of `x0` at a block index `y` is
    the whole-array function of `X` at the array index `J` with batch entry i0, row 512 i2 + (row of y) and the
    column of y: (512 i2 + R) / 2 = 256 i2 + R / 2, and 512 i2 + R has the parity of R. -/
theorem block_at (X : Vec F S16x3x1024x1024 .f32) (x0 : Vec F S1x3x256x1024 .f32) (i0 i2 : Nat) (h0 : i0 ≤ 15) (h2 : i2 ≤ 3)
    (hx0 : ∀ (ch : Fin 3) (a : Fin 256) (b : Fin 1024) (K : S16x3x1024x1024.Idx), (K 0).val = i0 → (K 1).val = ch.val →
      (K 2).val = i2 * 256 + a.val → (K 3).val = b.val → x0 (ix4 (0 : Fin 1) ch a b) = X K)
    (y : S1x1x512x2048.Idx) (J : S16x1x2048x2048.Idx) (hJ0 : (J 0).val = i0)
    (hJ2 : (J 2).val = i2 * 512 + (y 2).val) (hJ3 : (J 3).val = (y 3).val) :
    blockOf x0 y = G X J := by
  have hy2 : (y 2).val < 512 := (y 2).isLt
  have hy3 : (y 3).val < 2048 := (y 3).isLt
  unfold blockOf G pix
  by_cases hr : (y 2).val % 2 = 0 <;> by_cases hc : (y 3).val % 2 = 0
  · rw [if_pos hr, if_pos hc, if_pos (by rw [hJ2]; omega), if_pos (by rw [hJ3]; omega)]
    exact hx0 0 _ _ _ hJ0 rfl (by show (J 2).val / 2 = i2 * 256 + (y 2).val / 2; rw [hJ2]; omega)
      (by show (J 3).val / 2 = (y 3).val / 2; rw [hJ3])
  · rw [if_pos hr, if_neg hc, if_pos (by rw [hJ2]; omega), if_neg (by rw [hJ3]; omega)]
    exact hx0 1 _ _ _ hJ0 rfl (by show (J 2).val / 2 = i2 * 256 + (y 2).val / 2; rw [hJ2]; omega)
      (by show (J 3).val / 2 = (y 3).val / 2; rw [hJ3])
  · rw [if_neg hr, if_pos hc, if_neg (by rw [hJ2]; omega), if_pos (by rw [hJ3]; omega)]
    exact hx0 2 _ _ _ hJ0 rfl (by show (J 2).val / 2 = i2 * 256 + (y 2).val / 2; rw [hJ2]; omega)
      (by show (J 3).val / 2 = (y 3).val / 2; rw [hJ3])
  · rw [if_neg hr, if_neg hc, if_neg (by rw [hJ2]; omega), if_neg (by rw [hJ3]; omega)]

/-- WHAT POINT `t` WRITES BACK is block `t` of the whole-array function of the argument array. -/
theorem flushed_eq (c : Dev nD) (t : Fin cfg0.N) :
    (dats m 0 c).flushed 1 t = ((cfg0.win 1).blk t).view.read (Elt F) (G (V m c main_arg0)) := by
  rw [flushed1_A, out_eq]
  obtain ⟨e0, e1, e2, e3, b0, e5, b2, e7⟩ := idx_facts t
  funext j
  show blockOf (iblk m c 0 t) j = G (V m c main_arg0) (((cfg0.win 1).blk t).view.emb j)
  refine block_at (V m c main_arg0) (iblk m c 0 t) (win0_1.index t (0 : Fin 4)) (win0_1.index t (2 : Fin 4)) b0 b2 ?_ j _ ?_ ?_ ?_
  · intro ch a b K hK0 hK1 hK2 hK3
    show V m c main_arg0 (((cfg0.win 0).blk t).view.emb (ix4 (0 : Fin 1) ch a b)) = V m c main_arg0 K
    refine congrArg _ (funext fun ax => Fin.ext ?_)
    match ax with
    | ⟨0, _⟩ => show win0_0.index t (0 : Fin 4) * 1 + 1 * 0 = (K 0).val; rw [hK0, e0]; omega
    | ⟨1, _⟩ => show win0_0.index t (1 : Fin 4) * 3 + 1 * ch.val = (K 1).val; rw [hK1, e1]; omega
    | ⟨2, _⟩ => show win0_0.index t (2 : Fin 4) * 256 + 1 * a.val = (K 2).val; rw [hK2, e2]; omega
    | ⟨3, _⟩ => show win0_0.index t (3 : Fin 4) * 1024 + 1 * b.val = (K 3).val; rw [hK3, e3]; omega
  · show win0_1.index t (0 : Fin 4) * 1 + 1 * (j 0).val = win0_1.index t (0 : Fin 4)
    have hj : (j 0).val < 1 := (j 0).isLt
    omega
  · show win0_1.index t (2 : Fin 4) * 512 + 1 * (j 2).val = win0_1.index t (2 : Fin 4) * 512 + (j 2).val
    omega
  · show win0_1.index t (3 : Fin 4) * 2048 + 1 * (j 3).val = (j 3).val
    rw [e7]; omega

/-- An index of the result array is in point `t`'s block iff each coordinate is in the block's range on its axis. -/
theorem mem_blk (t : Fin cfg0.N) (i : S16x1x2048x2048.Idx) :
    i ∈ ((cfg0.win 1).blk t).view.set ↔ ∀ a : Fin 4, win0_1.index t a * S1x1x512x2048.size a ≤ (i a).val
      ∧ (i a).val < win0_1.index t a * S1x1x512x2048.size a + S1x1x512x2048.size a := by
  show i ∈ ((View.whole main_v0).slice (win0_1.rect t)).set ↔ _
  rw [View.set_slice_whole, Rect.mem_set_unit]
  exact Iff.rfl

/-- THE BLOCKS COVER THE RESULT ARRAY: the index (b, 0, R, C) lies in the block of the point with batch entry b and
    row band R / 512. -/
theorem cover (i : S16x1x2048x2048.Idx) :
    ∃ t : Fin cfg0.N, (cfg0.win 1).flush t = true ∧ i ∈ ((cfg0.win 1).blk t).view.set := by
  have hi0 : (i 0).val < 16 := (i 0).isLt
  have hi1 : (i 1).val < 1 := (i 1).isLt
  have hi2 : (i 2).val < 2048 := (i 2).isLt
  have hi3 : (i 3).val < 2048 := (i 3).isLt
  obtain ⟨t, ht⟩ := idx_onto ⟨(i 0).val, hi0⟩ ⟨(i 2).val / 512, by omega⟩
  have q0 : win0_1.index t (0 : Fin 4) = (i 0).val := congrFun ht 0
  have q1 : win0_1.index t (1 : Fin 4) = 0 := congrFun ht 1
  have q2 : win0_1.index t (2 : Fin 4) = (i 2).val / 512 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 1 ≤ (i 1).val ∧ (i 1).val < win0_1.index t (1 : Fin 4) * 1 + 1; omega
  | ⟨2, _⟩ => show win0_1.index t (2 : Fin 4) * 512 ≤ (i 2).val ∧ (i 2).val < win0_1.index t (2 : Fin 4) * 512 + 512; omega
  | ⟨3, _⟩ => show win0_1.index t (3 : Fin 4) * 2048 ≤ (i 3).val ∧ (i 3).val < win0_1.index t (3 : Fin 4) * 2048 + 2048; omega

/-- THE RESULT ARRAY after the run is the whole-array function of the argument array. -/
theorem final (c : Dev nD) : (dats m 0 c).arrAt 1 cfg0.N = G (m ((c : Thread nD τ).loc main_arg0)) :=
  (dats m 0 c).arrAt_eq_of_cover 1 (G (V m c main_arg0)) (fun t _ => flushed_eq m c t) cover

/-- The kernel's run, read: every weakly fair execution ends with the result array at the whole-array function of the
    argument array, the argument unchanged. -/
theorem run : θ_run defs (onTc (τ := τ) (main (F := F))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.Hand

end
-- ==== Proof.RefValue.lean ====
/-
  The reference's result array is the whole-array function of its argument.

  The reference stacks four [16, 1024, 1024] planes (the three input channels and a plane of the constant -1.0) into a
  [16, 4, 1024, 1024] array, views the channel axis as a pair (h, w) with channel = 2 h + w, moves the axes to
  (b, i, h, j, w) and flattens to [16, 1, 2048, 2048], where row = 2 i + h and column = 2 j + w. Read backwards, the
  output entry (b, 0, R, C) is channel 2 (R % 2) + (C % 2) at (b, R / 2, C / 2).
-/
import proofs.«118952_j28020366639577_2_alg».proof.Proof.Gen.ReferenceIdeal.Read
import proofs.«118952_j28020366639577_2_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.ValueIdx

namespace Cert.ReferenceIdeal.Hand

open Cert.ReferenceIdeal Cert.ReferenceIdeal.Gen Cert.ReferenceIdeal.Read Cert.Interleave

variable {F : FTy → Type} [FloatOps F]

/-- The last reshape, [16, 1024, 2, 1024, 2] to [16, 1, 2048, 2048], read backwards: the output index (b, z, R, C)
    comes from (b, R / 2, R % 2, C / 2, C % 2). -/
theorem idx14 (b : Fin 16) (z : Fin 1) (R C : Fin 2048) :
    idx_main_v14 (ix4 b z R C) = ix5 b (half R) (⟨R.val % 2, by omega⟩ : Fin 2) (half C) (⟨C.val % 2, by omega⟩ : Fin 2) := by
  have hb : b.val < 16 := b.isLt
  have hz : z.val < 1 := z.isLt
  have hR : R.val < 2048 := R.isLt
  have hC : C.val < 2048 := C.isLt
  funext a
  apply Fin.ext
  match a with
  | ⟨0, _⟩ => show (((b.val * 1 + z.val) * 2048 + R.val) * 2048 + C.val) / 4194304 = b.val; omega
  | ⟨1, _⟩ => show (((b.val * 1 + z.val) * 2048 + R.val) * 2048 + C.val) / 4096 % 1024 = R.val / 2; omega
  | ⟨2, _⟩ => show (((b.val * 1 + z.val) * 2048 + R.val) * 2048 + C.val) / 2048 % 2 = R.val % 2; omega
  | ⟨3, _⟩ => show (((b.val * 1 + z.val) * 2048 + R.val) * 2048 + C.val) / 2 % 1024 = C.val / 2; omega
  | ⟨4, _⟩ => show (((b.val * 1 + z.val) * 2048 + R.val) * 2048 + C.val) % 2 = C.val % 2; omega

/-- The transpose, read backwards: (b, i, h, j, w) comes from (b, h, w, i, j). -/
theorem idx13 (b : Fin 16) (i : Fin 1024) (h : Fin 2) (j : Fin 1024) (w : Fin 2) :
    idx_main_v13 (ix5 b i h j w) = ix5 b h w i j := by
  funext a
  apply Fin.ext
  match a with
  | ⟨0, _⟩ => rfl
  | ⟨1, _⟩ => rfl
  | ⟨2, _⟩ => rfl
  | ⟨3, _⟩ => rfl
  | ⟨4, _⟩ => rfl

/-- The first reshape, [16, 4, 1024, 1024] to [16, 2, 2, 1024, 1024], read backwards: (b, h, w, i, j) comes from
    channel 2 h + w at (b, i, j). -/
theorem idx12 (b : Fin 16) (h w : Fin 2) (i j : Fin 1024) :
    idx_main_v12 (ix5 b h w i j) = ix4 b (⟨h.val * 2 + w.val, by omega⟩ : Fin 4) i j := by
  have hb : b.val < 16 := b.isLt
  have hh : h.val < 2 := h.isLt
  have hw : w.val < 2 := w.isLt
  have hi : i.val < 1024 := i.isLt
  have hj : j.val < 1024 := j.isLt
  funext a
  apply Fin.ext
  match a with
  | ⟨0, _⟩ => show (((((b.val * 2 + h.val) * 2 + w.val) * 1024 + i.val) * 1024 + j.val) / 4194304) = b.val; omega
  | ⟨1, _⟩ => show (((((b.val * 2 + h.val) * 2 + w.val) * 1024 + i.val) * 1024 + j.val) / 1048576 % 4) = h.val * 2 + w.val; omega
  | ⟨2, _⟩ => show (((((b.val * 2 + h.val) * 2 + w.val) * 1024 + i.val) * 1024 + j.val) / 1024 % 1024) = i.val; omega
  | ⟨3, _⟩ => show (((((b.val * 2 + h.val) * 2 + w.val) * 1024 + i.val) * 1024 + j.val) % 1024) = j.val; omega

/-- A channel plane stood up as a [16, 1, 1024, 1024] array, read back at (b, u, i, j): the plane's (b, i, j), that is
    the [16, 1, 1024, 1024] slice's (b, 0, i, j). -/
theorem idx_plane (b : Fin 16) (u : Fin 1) (i j : Fin 1024) :
    idx_main_v2 (idx_main_v7 (ix4 b u i j)) = ix4 b (0 : Fin 1) i j := by
  have hb : b.val < 16 := b.isLt
  have hi : i.val < 1024 := i.isLt
  have hj : j.val < 1024 := j.isLt
  funext a
  apply Fin.ext
  match a with
  | ⟨0, _⟩ => show ((b.val * 1024 + i.val) * 1024 + j.val) / 1048576 = b.val; omega
  | ⟨1, _⟩ => rfl
  | ⟨2, _⟩ => show ((b.val * 1024 + i.val) * 1024 + j.val) / 1024 % 1024 = i.val; omega
  | ⟨3, _⟩ => show ((b.val * 1024 + i.val) * 1024 + j.val) % 1024 = j.val; omega

/-- The same for the second and the third channel's plane (their index functions are the first's, under other names). -/
theorem idx_plane1 (b : Fin 16) (u : Fin 1) (i j : Fin 1024) :
    idx_main_v4 (idx_main_v8 (ix4 b u i j)) = ix4 b (0 : Fin 1) i j := idx_plane b u i j
theorem idx_plane2 (b : Fin 16) (u : Fin 1) (i j : Fin 1024) :
    idx_main_v6 (idx_main_v9 (ix4 b u i j)) = ix4 b (0 : Fin 1) i j := idx_plane b u i j

/-- THE REFERENCE AT AN OUTPUT ENTRY. Going backwards through reshape, transpose and reshape, the entry (b, z, R, C)
    is channel 2 (R % 2) + (C % 2) of the four stacked planes at (b, R / 2, C / 2); the four planes are the three input
    channels and the constant plane. -/
theorem ref_at (x : (⟨S16x3x1024x1024, .f32⟩ : BufTy).Contents (Elt F)) (b : Fin 16) (z : Fin 1) (R C : Fin 2048) :
    val_main_v14 (F := F) x (ix4 b z R C) = pix x b R C := by
  have hR : R.val < 2048 := R.isLt
  have hC : C.val < 2048 := C.isLt
  rw [val_main_v14_apply, val_main_v13_apply, val_main_v12_apply, idx14, idx13, idx12]
  unfold val_main_v11 pix
  by_cases hr : R.val % 2 = 0 <;> by_cases hc : C.val % 2 = 0
  · rw [if_pos hr, if_pos hc]
    refine (concatenate_apply_piece (t := S16x4x1024x1024) (1 : Fin 4) _ _ _ 0 (by simp) S16x1x1024x1024
      (val_main_v7 (F := F) x) rfl rfl 0 rfl (ix4 b (0 : Fin 1) (half R) (half C)) (fun a ha => ?_) ?_).trans ?_
    · match a, ha with
      | ⟨0, _⟩, _ => rfl
      | ⟨1, _⟩, ha => exact absurd rfl ha
      | ⟨2, _⟩, _ => rfl
      | ⟨3, _⟩, _ => rfl
    · show 0 + 0 = R.val % 2 * 2 + C.val % 2; omega
    · rw [val_main_v7_apply, val_main_v2_apply, val_main_v1_apply, idx_plane]
      refine congrArg x (funext fun a => Fin.ext ?_)
      match a with
      | ⟨0, _⟩ => rfl
      | ⟨1, _⟩ => rfl
      | ⟨2, _⟩ => rfl
      | ⟨3, _⟩ => rfl
  · rw [if_pos hr, if_neg hc]
    refine (concatenate_apply_piece (t := S16x4x1024x1024) (1 : Fin 4) _ _ _ 1 (by simp) S16x1x1024x1024
      (val_main_v8 (F := F) x) rfl rfl 1 rfl (ix4 b (0 : Fin 1) (half R) (half C)) (fun a ha => ?_) ?_).trans ?_
    · match a, ha with
      | ⟨0, _⟩, _ => rfl
      | ⟨1, _⟩, ha => exact absurd rfl ha
      | ⟨2, _⟩, _ => rfl
      | ⟨3, _⟩, _ => rfl
    · show 1 + 0 = R.val % 2 * 2 + C.val % 2; omega
    · rw [val_main_v8_apply, val_main_v4_apply, val_main_v3_apply, idx_plane1]
      refine congrArg x (funext fun a => Fin.ext ?_)
      match a with
      | ⟨0, _⟩ => rfl
      | ⟨1, _⟩ => rfl
      | ⟨2, _⟩ => rfl
      | ⟨3, _⟩ => rfl
  · rw [if_neg hr, if_pos hc]
    refine (concatenate_apply_piece (t := S16x4x1024x1024) (1 : Fin 4) _ _ _ 2 (by simp) S16x1x1024x1024
      (val_main_v9 (F := F) x) rfl rfl 2 rfl (ix4 b (0 : Fin 1) (half R) (half C)) (fun a ha => ?_) ?_).trans ?_
    · match a, ha with
      | ⟨0, _⟩, _ => rfl
      | ⟨1, _⟩, ha => exact absurd rfl ha
      | ⟨2, _⟩, _ => rfl
      | ⟨3, _⟩, _ => rfl
    · show 2 + 0 = R.val % 2 * 2 + C.val % 2; omega
    · rw [val_main_v9_apply, val_main_v6_apply, val_main_v5_apply, idx_plane2]
      refine congrArg x (funext fun a => Fin.ext ?_)
      match a with
      | ⟨0, _⟩ => rfl
      | ⟨1, _⟩ => rfl
      | ⟨2, _⟩ => rfl
      | ⟨3, _⟩ => rfl
  · rw [if_neg hr, if_neg hc]
    refine (concatenate_apply_piece (t := S16x4x1024x1024) (1 : Fin 4) _ _ _ 3 (by simp) S16x1x1024x1024
      (val_main_v10 (F := F)) rfl rfl 3 rfl (ix4 b (0 : Fin 1) (half R) (half C)) (fun a ha => ?_) ?_).trans ?_
    · match a, ha with
      | ⟨0, _⟩, _ => rfl
      | ⟨1, _⟩, ha => exact absurd rfl ha
      | ⟨2, _⟩, _ => rfl
      | ⟨3, _⟩, _ => rfl
    · show 3 + 0 = R.val % 2 * 2 + C.val % 2; omega
    · rw [val_main_v10_apply, val_main_v0_apply, val_main_cst_apply]

/-- THE REFERENCE'S RESULT IS THE WHOLE-ARRAY FUNCTION of its argument. -/
theorem ref_eq (x : (⟨S16x3x1024x1024, .f32⟩ : BufTy).Contents (Elt F)) : val_main_v14 (F := F) x = G x := by
  funext i
  obtain ⟨b, z, R, C, rfl⟩ : ∃ (b : Fin 16) (z : Fin 1) (R C : Fin 2048), i = ix4 b z R C :=
    ⟨i 0, i 1, i 2, i 3, eq_ix4 i⟩
  exact ref_at x b z R C

end Cert.ReferenceIdeal.Hand

end
-- ==== Proof.lean ====
/-
  The kernel and its reference compute the same array.

  Both take x : [16, 3, 1024, 1024] and return y : [16, 1, 2048, 2048] with, for every batch entry b and every input
  pixel position (i, j),

      y[b, 0, 2i, 2j] = x[b, 0, i, j],   y[b, 0, 2i, 2j + 1] = x[b, 1, i, j],
      y[b, 0, 2i + 1, 2j] = x[b, 2, i, j],   y[b, 0, 2i + 1, 2j + 1] = -1.0.

  The reference builds y by stacking, reshaping and transposing whole arrays; the kernel builds it 16 output rows at a
  time inside a 16 x 4 grid of blocks. Neither does arithmetic on an entry, so the two results are equal entry by entry
  for every input, finite or not: the precondition is not used. The whole-array function is `Cert.Interleave.G`; the
  kernel's run ends with its result array at `G` of the argument (KernelValue), the reference's at the same (RefValue),
  and the arguments agree by hypothesis. The idealized kernel is the kernel's own text read over the extended reals (no
  operation was rewritten), so there is nothing to preserve.
-/
import proofs.«118952_j28020366639577_2_alg».proof.Defs
import proofs.«118952_j28020366639577_2_alg».proof.Proof.Gen.Kernel
import proofs.«118952_j28020366639577_2_alg».proof.Proof.Gen.Kernel.Frame
import proofs.«118952_j28020366639577_2_alg».proof.Proof.Gen.KernelIdeal
import proofs.«118952_j28020366639577_2_alg».proof.Proof.Gen.KernelIdeal.Frame
import proofs.«118952_j28020366639577_2_alg».proof.Proof.Gen.KernelIdeal.Value
import proofs.«118952_j28020366639577_2_alg».proof.Proof.Gen.ReferenceIdeal
import proofs.«118952_j28020366639577_2_alg».proof.Proof.Gen.ReferenceIdeal.Run
import proofs.«118952_j28020366639577_2_alg».proof.Proof.Gen.ReferenceIdeal.Read
import proofs.«118952_j28020366639577_2_alg».proof.Proof.Gen.Pre_finite_inputs
import proofs.«118952_j28020366639577_2_alg».proof.Proof.Spec
import proofs.«118952_j28020366639577_2_alg».proof.Proof.KernelValue
import proofs.«118952_j28020366639577_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its argument unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its argument unchanged: its run, with the statement about the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- From memories that agree on the argument, both programs end with their result arrays at the whole-array function
    of that argument. -/
theorem algebraic : Cert.algebraic_KernelIdeal_ReferenceIdeal := by
  intro m ρ m' ρ' _ hagree
  refine ⟨_, Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.Hand.ref_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
